-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg9 : FVec F S128x47 .f32) (main_arg10 : FVec F S128x47 .f32) (main_arg11 : FVec F S47 .f32) (main_v33 : IVec S_ 1) : IVec S_ 1 :=
  let main_v34 : FVec F S128x47 .f32 := Host.absf main_arg9
  let main_cst_12 : FVec F S_ .f32 := constant S_ .f32 0x7F800000#32
  let main_v35 : FVec F S128x47 .f32 := broadcastInDim S128x47 ![] bcast_S_S128x47 main_cst_12
  let main_v36 : IVec S128x47 1 := cmpf .olt main_v34 main_v35
  let main_c_13 : IVec S_ 1 := constantI S_ 1 1#1
  let main_v37 : IVec S_ 1 := (fun x v => Host.reduce IntOp.andi x v reducesTo_S128x47_S_d0_1 h_S_) main_v36 main_c_13
  let main_v38 : IVec S_ 1 := andi main_v33 main_v37
  let main_v39 : FVec F S128x47 .f32 := Host.absf main_arg10
  let main_cst_14 : FVec F S_ .f32 := constant S_ .f32 0x7F800000#32
  let main_v40 : FVec F S128x47 .f32 := broadcastInDim S128x47 ![] bcast_S_S128x47 main_cst_14
  let main_v41 : IVec S128x47 1 := cmpf .olt main_v39 main_v40
  let main_c_15 : IVec S_ 1 := constantI S_ 1 1#1
  let main_v42 : IVec S_ 1 := (fun x v => Host.reduce IntOp.andi x v reducesTo_S128x47_S_d0_1 h_S_) main_v41 main_c_15
  let main_v43 : IVec S_ 1 := andi main_v38 main_v42
  let main_v44 : FVec F S47 .f32 := Host.absf main_arg11
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x47 .f32) (main_arg10 : FVec F S128x47 .f32) (main_arg11 : FVec F S47 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x47 .f32) (main_arg10 : FVec F S128x47 .f32) (main_arg11 : FVec F S47 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S1x47 : Shape := ⟨2, ![1, 47]⟩
abbrev S50000x47 : Shape := ⟨2, ![50000, 47]⟩
abbrev S5000x47 : Shape := ⟨2, ![5000, 47]⟩

abbrev nBuf : Space → Nat
  | .hbm => 76
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S128x47, .f32⟩
  | .hbm, ⟨11, _⟩ => ⟨S47, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x47, .f32⟩
  | .hbm, ⟨75, _⟩ => ⟨S50000x47, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x47, .f32⟩
  | .local _ .vmem, ⟨23, _⟩ => ⟨S128x47, .f32⟩
  | .local _ .vmem, ⟨24, _⟩ => ⟨S1x47, .f32⟩
  | .local _ .vmem, ⟨25, _⟩ => ⟨S5000x47, .f32⟩
  | .local _ .vmem, ⟨26, _⟩ => ⟨S5000x47, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x47 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S47_S1x47 : S47.ShapeCasts S1x47
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  inb_S5000x47_S5000x47_0_0 : ∀ a, (![0, 0] : Fin 2 → Nat) a + S5000x47.size a ≤ S5000x47.size a
  h_S5000x47 : 0 < S5000x47.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x47_S5000x47_1_0_0_1_n_n_wf : DotDims.WF S5000x128 S128x47 S5000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x47.size a ≤ S128x47.size a
  hwx2_2 : ∀ i : grid2.Coords, EltTy.bits .f32 = 32 ∨ (Rect.block (s := S128x47) S128x47.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x47.size a ≤ S128x47.size a
  hwx2_3 : ∀ i : grid2.Coords, EltTy.bits .f32 = 32 ∨ (Rect.block (s := S128x47) S128x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x47.size a ≤ S1x47.size a
  hwx2_4 : ∀ i : grid2.Coords, EltTy.bits .f32 = 32 ∨ (Rect.block (s := S1x47) S1x47.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x47.size a ≤ S50000x47.size a
  hwx2_5 : ∀ i : grid2.Coords, EltTy.bits .f32 = 32 ∨ (Rect.block (s := S50000x47) S5000x47.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S5000x47.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x47 : Shape := ⟨2, ![50000, 47]⟩
abbrev S1x47 : Shape := ⟨2, ![1, 47]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S128x47, .f32⟩
  | .hbm, ⟨11, _⟩ => ⟨S47, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S800000, .f32⟩
  | .hbm, ⟨48, _⟩ => ⟨S_, .f32⟩
  | .hbm, ⟨49, _⟩ => ⟨S50000, .f32⟩
  | .hbm, ⟨50, _⟩ => ⟨S800000x1, .i32⟩
  | .hbm, ⟨51, _⟩ => ⟨S50000, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S800000, .f32⟩
  | .hbm, ⟨82, _⟩ => ⟨S_, .f32⟩
  | .hbm, ⟨83, _⟩ => ⟨S50000, .f32⟩
  | .hbm, ⟨84, _⟩ => ⟨S800000x1, .i32⟩
  | .hbm, ⟨85, _⟩ => ⟨S50000, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x128, .f32⟩
  | .hbm, ⟨95, _⟩ => ⟨S_, .f32⟩
  | .hbm, ⟨96, _⟩ => ⟨S50000x128, .f32⟩
  | .hbm, ⟨97, _⟩ => ⟨S800000x1, .i32⟩
  | .hbm, ⟨98, _⟩ => ⟨S50000x128, .f32⟩
  | .hbm, ⟨99, _⟩ => ⟨S_, .f32⟩
  | .hbm, ⟨100, _⟩ => ⟨S50000, .f32⟩
  | .hbm, ⟨101, _⟩ => ⟨S50000, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S50000x47, .f32⟩
  | .hbm, ⟨106, _⟩ => ⟨S50000x47, .f32⟩
  | .hbm, ⟨107, _⟩ => ⟨S50000x47, .f32⟩
  | .hbm, ⟨108, _⟩ => ⟨S1x47, .f32⟩
  | .hbm, ⟨109, _⟩ => ⟨S50000x47, .f32⟩
  | .hbm, ⟨110, _⟩ => ⟨S50000x47, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x47_S50000x47_1_0_0_1_n_n_wf : DotDims.WF S50000x128 S128x47 S50000x47 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x47_S50000x47_1_0_0_1_n_n : DotDims S50000x128 S128x47 S50000x47 where
  lhsContracting := [1]
  rhsContracting := [0]
  lhsNonContracting := [0]
  rhsNonContracting := [1]
  lhsBatch := []
  rhsBatch := []
  wf := dot_S50000x128_S128x47_S50000x47_1_0_0_1_n_n_wf

class Facts : Prop extends Facts₀ where

variable [Facts]
-- ==== Proof.KernelRun.lean ====
/-
  The kernel's run with its result named.

  @main is six segments: three stretches of host operations, each followed by a launch. The contents of every buffer at
  each of the seven boundaries are a fold from the launch memory (`W0` … `W6`): a host stretch applies its operations
  in order, a launch replaces its arrays by what its write-backs leave and keeps every other buffer. Every weakly fair
  execution terminates with every buffer that outlives the launches at the last boundary's contents `W6`; read at
  the result buffer and at the twelve arguments (which no operation and no launch writes) that is this theorem.
-/
import proofs.«149086_j4733053960618_1_alg».proof.Proof.KernelIdealFrameP

set_option maxRecDepth 16384

noncomputable section

namespace Cert.Sage.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v50) = W6 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v50 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.Sage.Run

end
-- ==== Proof.LibRecipQuotient.lean ====
/-
  Multiplying by a reciprocal against dividing, on the extended reals.

  `Ideal.div x y` is `x * y⁻¹` whenever `y ≠ 0` (only a zero divisor is special), so for such a divisor
  `a * (1 / y) = a * (1 * y⁻¹) = a * y⁻¹ = a / y` for EVERY extended real `a` — no finiteness of `a` or of `y` is
  needed, because the two sides are the same product, not two products related by a cancellation. A divisor of the
  form `max x 1` is at least one, hence not zero: this is the shape a mean over a neighbourhood takes when the count
  is clamped below by one, `s * (1 / max n 1)` against `s / max n 1`.
-/
import Idealize.ShloMosaic.PureOps.Ideal
import Idealize.ShloMosaic.PureOps.Ideal.Laws

noncomputable section

namespace Cert.LibRecipQuotient

open Idealize.ShloMosaic

/-- The binary32 pattern of `1.0` (sign 0, biased exponent 127, fraction 0) denotes the real number one. -/
theorem ofBits_one_f32 : Ideal.ofBits .f32 0x3F800000#32 = 1 := by
  simp [Ideal.ofBits, Ideal.ieee, -EReal.coe_mul]; norm_num

/-- Off a zero divisor, the product with the reciprocal IS the quotient: both are `a * d⁻¹`. -/
theorem mul_div_one_eq_div (a d : EReal) (hd : d ≠ 0) : a * Ideal.div 1 d = Ideal.div a d := by
  unfold Ideal.div
  rw [if_neg hd, if_neg hd, one_mul]

/-- A value clamped below by one is not zero. -/
theorem max_one_ne_zero (x : EReal) : max x 1 ≠ 0 := by
  intro h
  have h1 : (1 : EReal) ≤ max x 1 := le_max_right x 1
  rw [h] at h1
  exact absurd h1 (not_le.mpr (by exact_mod_cast (zero_lt_one : (0 : ℝ) < 1)))

/-- The law in the form the two programs meet it, the constant one still spelt as its binary32 pattern: a sum scaled
    by the reciprocal of a count clamped below by one is that sum divided by the clamped count. -/
theorem mul_recip_clamped (a x : EReal) :
    a * Ideal.div (Ideal.ofBits .f32 0x3F800000#32) (max x (Ideal.ofBits .f32 0x3F800000#32))
      = Ideal.div a (max x (Ideal.ofBits .f32 0x3F800000#32)) := by
  rw [ofBits_one_f32]
  exact mul_div_one_eq_div a (max x 1) (max_one_ne_zero x)

end Cert.LibRecipQuotient

end
-- ==== Proof.Spec.lean ====
/-
  The network both programs compute, and the one law between their two spellings of a neighbourhood mean.

  Nodes carry 128 features. For an edge list (src, dst) the NEIGHBOUR SUM of a feature array `h` at node `v` adds up
  the rows `h[src e]` over the edges `e` with `dst e = v`, and the CLAMPED COUNT of `v` is the number of such edges,
  but at least one. Both programs form these by the same gather and scatter-add, so they are named here once and
  never opened. A layer is
      h ↦ h · Ws + mean(h) · Wn + b          (clamped below by zero in the first two layers),
  and the two programs differ only in the mean: the reference DIVIDES the neighbour sum by the clamped count, the
  kernel MULTIPLIES it by the reciprocal `1 / count` computed once. On the extended reals a quotient by a nonzero
  divisor is the product with its inverse, and a count clamped below by one is not zero, so the two means are one
  array — whatever the sums are, finite or not.
-/
import proofs.«149086_j4733053960618_1_alg».proof.Proof.Gen.ReferenceIdeal.Read
import proofs.«149086_j4733053960618_1_alg».proof.Proof.LibRecipQuotient

noncomputable section

namespace Cert.Sage

open Cert.ReferenceIdeal Cert.ReferenceIdeal.Gen Idealize.ShloMosaic Idealize.ShloMosaic.TcCoe Idealize.ShloMosaic.ValueIdx

/-- A feature array: one row of 128 extended reals per node. -/
abbrev Feat := FVec Ideal S50000x128 .f32
/-- One extended real per node. -/
abbrev PerNode := FVec Ideal S50000 .f32
/-- One 32-bit integer per edge. -/
abbrev Edges := IVec S800000 32

/-! ## A per-node value repeated along the features -/

/-- A per-node value made a column and repeated along the 128 features. -/
def alongFeatures (y : PerNode) : Feat :=
  broadcastInDim S50000x128 ![0, 1] bcast_S50000x1_S50000x128_0_1 (broadcastInDim S50000x1 ![0] bcast_S50000_S50000x1_0 y)

/-- Read at `(v, k)` it is the value at node `v`. -/
theorem alongFeatures_apply (y : PerNode) (i : S50000x128.Idx) :
    alongFeatures y i = y (Read.idx_main_v16 (Read.idx_main_v17 i)) :=
  (broadcastInDim_apply _ bcast_S50000x1_S50000x128_0_1 _ i (Read.idx_main_v17 i) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl])).trans
    (broadcastInDim_apply _ bcast_S50000_S50000x1_0 y (Read.idx_main_v17 i) (Read.idx_main_v16 (Read.idx_main_v17 i)) (fun a => match a with
      | ⟨0, _⟩ => by show (i 0).val = if (50000 : Nat) = 1 then 0 else (i 0).val; rw [if_neg (by decide)]))

/-- The constant one at every node. -/
def ones : PerNode := broadcastInDim S50000 ![] bcast_S_S50000 (constant (F := Ideal) S_ .f32 0x3F800000#32)

theorem ones_apply (v : S50000.Idx) : ones v = Ideal.ofBits .f32 0x3F800000#32 :=
  broadcastInDim_apply _ bcast_S_S50000 _ v (fun a => a.elim0) (fun a => a.elim0)

/-! ## The law, at the arrays -/

/-- Sums scaled by the reciprocal of a count clamped below by one are the sums divided by the clamped count: entry
    by entry both are the sum times the inverse of the clamped count, which is at least one and so not zero. -/
theorem scale_by_reciprocal_eq_divide (A : Feat) (d : PerNode) :
    mulf A (alongFeatures (Host.divf ones (maximumf d ones))) = Host.divf A (alongFeatures (maximumf d ones)) := by
  funext i
  show A i * alongFeatures (Host.divf ones (maximumf d ones)) i = Ideal.div (A i) (alongFeatures (maximumf d ones) i)
  rw [alongFeatures_apply, alongFeatures_apply]
  show A i * Ideal.div (ones _) (max (d _) (ones _)) = Ideal.div (A i) (max (d _) (ones _))
  rw [ones_apply]
  exact LibRecipQuotient.mul_recip_clamped (A i) (d _)

/-! ## The shared gather and scatter-add, named once -/

/-- NEIGHBOUR SUMS of `h`: the rows gathered at the edges' sources (an index below zero wrapped by the number of
    nodes) and added up at the edges' destinations. The reference's own term, which is generic in `h`. -/
def neighbourSum (h : Feat) (src dst : Edges) : Feat := Read.val_main_v13 (F := Ideal) h src dst

/-- IN-DEGREES: one added up at every edge's destination. -/
def degree (dst : Edges) : PerNode := Read.val_main_v3 (F := Ideal) dst

/-- The reference's mean: the neighbour sum divided by the clamped count. -/
def meanByQuotient (h : Feat) (src dst : Edges) : Feat :=
  Host.divf (neighbourSum h src dst) (alongFeatures (maximumf (degree dst) ones))

/-- The kernel's mean: the neighbour sum times the reciprocal of the clamped count. -/
def meanByReciprocal (h : Feat) (src dst : Edges) : Feat :=
  mulf (neighbourSum h src dst) (alongFeatures (Host.divf ones (maximumf (degree dst) ones)))

theorem meanByReciprocal_eq : meanByReciprocal = meanByQuotient :=
  funext fun h => funext fun src => funext fun dst => scale_by_reciprocal_eq_divide _ _

/-! ## A layer, and the three of them -/

/-- A hidden layer before its clamp: `h · Ws + hn · Wn + b`, in the reference's operations. -/
def dense (h hn : Feat) (ws wn : FVec Ideal S128x128 .f32) (b : FVec Ideal S128 .f32) : Feat :=
  addf (addf (Read.val_main_v19 (F := Ideal) h ws) (Read.val_main_v19 (F := Ideal) hn wn)) (Read.val_main_v23 (F := Ideal) b)

/-- The clamp below by zero. -/
def clampZero (x : Feat) : Feat := maximumf x (Read.val_main_call0_v0 (F := Ideal))

/-- The output layer, 47 classes wide and not clamped. -/
def denseOut (h hn : Feat) (ws wn : FVec Ideal S128x47 .f32) (b : FVec Ideal S47 .f32) : FVec Ideal S50000x47 .f32 :=
  addf (addf (Host.dotGeneral dot_S50000x128_S128x47_S50000x47_1_0_0_1_n_n none h ws)
             (Host.dotGeneral dot_S50000x128_S128x47_S50000x47_1_0_0_1_n_n none hn wn)) (Read.val_main_v75 (F := Ideal) b)

/-- THE NETWORK, for either spelling `mean` of the neighbourhood mean. -/
def net (mean : Feat → Edges → Edges → Feat) (x : Feat) (src dst : Edges)
    (w3 w4 : FVec Ideal S128x128 .f32) (b5 : FVec Ideal S128 .f32) (w6 w7 : FVec Ideal S128x128 .f32) (b8 : FVec Ideal S128 .f32)
    (w9 w10 : FVec Ideal S128x47 .f32) (b11 : FVec Ideal S47 .f32) : FVec Ideal S50000x47 .f32 :=
  let h1 := clampZero (dense x (mean x src dst) w3 w4 b5)
  let h2 := clampZero (dense h1 (mean h1 src dst) w6 w7 b8)
  denseOut h2 (mean h2 src dst) w9 w10 b11

/-- The reference's result term IS the network with the mean by quotient: each of its later layers repeats the first
    layer's operations on the previous layer's output, and recomputes the same in-degrees. -/
theorem reference_is_net (x : Feat) (src dst : Edges) (w3 w4 : FVec Ideal S128x128 .f32) (b5 : FVec Ideal S128 .f32)
    (w6 w7 : FVec Ideal S128x128 .f32) (b8 : FVec Ideal S128 .f32) (w9 w10 : FVec Ideal S128x47 .f32) (b11 : FVec Ideal S47 .f32) :
    Read.val_main_v76 (F := Ideal) x src dst w3 w4 b5 w6 w7 b8 w9 w10 b11 = net meanByQuotient x src dst w3 w4 b5 w6 w7 b8 w9 w10 b11 :=
  rfl

end Cert.Sage

end
-- ==== Proof.Columns.lean ====
/-
  The kernel's spelling of the mean, in two pieces: the reciprocal of the clamped count is computed once, as a column,
  and every layer scales its neighbour sums by that column repeated along the features.
-/
import proofs.«149086_j4733053960618_1_alg».proof.Proof.Spec

noncomputable section

namespace Cert.Sage

open Cert.ReferenceIdeal Cert.ReferenceIdeal.Gen Idealize.ShloMosaic Idealize.ShloMosaic.TcCoe

/-- One extended real per node, as a column. -/
abbrev Column := FVec Ideal S50000x1 .f32

/-- The reciprocal of the clamped count of every node, as a column. -/
def reciprocalColumn (dst : Edges) : Column :=
  broadcastInDim S50000x1 ![0] bcast_S50000_S50000x1_0 (Host.divf ones (maximumf (degree dst) ones))

/-- Neighbour sums scaled, row by row, by a column. -/
def scaledSums (h : Feat) (src dst : Edges) (col : Column) : Feat :=
  mulf (neighbourSum h src dst) (broadcastInDim S50000x128 ![0, 1] bcast_S50000x1_S50000x128_0_1 col)

/-- Scaled by the reciprocal column they are the kernel's mean. -/
theorem scaledSums_reciprocalColumn (h : Feat) (src dst : Edges) :
    scaledSums h src dst (reciprocalColumn dst) = meanByReciprocal h src dst := rfl

end Cert.Sage

end
-- ==== Proof.HostStretch.lean ====
/-
  The three stretches of host operations of the kernel's @main, read at the buffers the launches take.

  From ANY contents `W` of the buffers: the first stretch forms the in-degrees, the reciprocal column of the clamped
  counts, the first layer's scaled neighbour sums and the first bias as a row; the second and third form the scaled
  neighbour sums of the previous launch's output, with the SAME reciprocal column, and the next bias row. No stretch
  writes an argument, the reciprocal column once it exists, or a launch's output.
-/
import proofs.«149086_j4733053960618_1_alg».proof.Proof.KernelIdealLaunchP
import proofs.«149086_j4733053960618_1_alg».proof.Proof.Columns
import Idealize.ShloMosaic.Lib.StableHlo.Run

set_option maxRecDepth 16384

noncomputable section

namespace Cert.Sage.Stretch

open Cert.KernelIdeal Cert.KernelIdeal.Gen Cert.KernelIdeal.GenP Cert.Sage
open Idealize.ShloMosaic Idealize.ShloMosaic.TcCoe Idealize.SL.Sem Idealize.ShloMosaic.StableHlo

variable (W : Valuation τ sig (Elt Ideal))

/-! ## Before the first launch -/

/-- The reciprocal column of the clamped counts, of the destinations as `W` holds them. -/
theorem stretch0_column : StableHlo.after (hostOps0 (F := Ideal)) W (Proc.devRef .tc main_v8) = reciprocalColumn (W (Proc.devRef .tc main_arg2)) := by
  after_results
  rfl

/-- The first layer's second operand: the neighbour sums of the input features, scaled by that column. -/
theorem stretch0_scaled : StableHlo.after (hostOps0 (F := Ideal)) W (Proc.devRef .tc main_v20)
    = scaledSums (W (Proc.devRef .tc main_arg0)) (W (Proc.devRef .tc main_arg1)) (W (Proc.devRef .tc main_arg2)) (reciprocalColumn (W (Proc.devRef .tc main_arg2))) := by
  after_results_simp <;> rfl

/-- The first bias as a one-row matrix. -/
theorem stretch0_bias : StableHlo.after (hostOps0 (F := Ideal)) W (Proc.devRef .tc main_v21)
    = shapeCast S1x128 ((W (Proc.devRef .tc main_arg5)) : FVec Ideal S128 .f32) shapeCasts_S128_S1x128 := by
  after_results
  rfl

theorem stretch0_keeps_main_arg0 : StableHlo.after (hostOps0 (F := Ideal)) W (Proc.devRef .tc main_arg0) = W (Proc.devRef .tc main_arg0) := by
  after_results

theorem stretch0_keeps_main_arg1 : StableHlo.after (hostOps0 (F := Ideal)) W (Proc.devRef .tc main_arg1) = W (Proc.devRef .tc main_arg1) := by
  after_results

theorem stretch0_keeps_main_arg2 : StableHlo.after (hostOps0 (F := Ideal)) W (Proc.devRef .tc main_arg2) = W (Proc.devRef .tc main_arg2) := by
  after_results

theorem stretch0_keeps_main_arg3 : StableHlo.after (hostOps0 (F := Ideal)) W (Proc.devRef .tc main_arg3) = W (Proc.devRef .tc main_arg3) := by
  after_results

theorem stretch0_keeps_main_arg4 : StableHlo.after (hostOps0 (F := Ideal)) W (Proc.devRef .tc main_arg4) = W (Proc.devRef .tc main_arg4) := by
  after_results

theorem stretch0_keeps_main_arg5 : StableHlo.after (hostOps0 (F := Ideal)) W (Proc.devRef .tc main_arg5) = W (Proc.devRef .tc main_arg5) := by
  after_results

theorem stretch0_keeps_main_arg6 : StableHlo.after (hostOps0 (F := Ideal)) W (Proc.devRef .tc main_arg6) = W (Proc.devRef .tc main_arg6) := by
  after_results

theorem stretch0_keeps_main_arg7 : StableHlo.after (hostOps0 (F := Ideal)) W (Proc.devRef .tc main_arg7) = W (Proc.devRef .tc main_arg7) := by
  after_results

theorem stretch0_keeps_main_arg8 : StableHlo.after (hostOps0 (F := Ideal)) W (Proc.devRef .tc main_arg8) = W (Proc.devRef .tc main_arg8) := by
  after_results

theorem stretch0_keeps_main_arg9 : StableHlo.after (hostOps0 (F := Ideal)) W (Proc.devRef .tc main_arg9) = W (Proc.devRef .tc main_arg9) := by
  after_results

theorem stretch0_keeps_main_arg10 : StableHlo.after (hostOps0 (F := Ideal)) W (Proc.devRef .tc main_arg10) = W (Proc.devRef .tc main_arg10) := by
  after_results

theorem stretch0_keeps_main_arg11 : StableHlo.after (hostOps0 (F := Ideal)) W (Proc.devRef .tc main_arg11) = W (Proc.devRef .tc main_arg11) := by
  after_results

/-! ## Between the first and the second launch -/

theorem stretch1_scaled : StableHlo.after (hostOps1 (F := Ideal)) W (Proc.devRef .tc main_v34)
    = scaledSums (W (Proc.devRef .tc main_v22)) (W (Proc.devRef .tc main_arg1)) (W (Proc.devRef .tc main_arg2)) (W (Proc.devRef .tc main_v8)) := by
  after_results_simp <;> rfl

theorem stretch1_bias : StableHlo.after (hostOps1 (F := Ideal)) W (Proc.devRef .tc main_v35)
    = shapeCast S1x128 ((W (Proc.devRef .tc main_arg8)) : FVec Ideal S128 .f32) shapeCasts_S128_S1x128 := by
  after_results
  rfl

theorem stretch1_keeps_main_v22 : StableHlo.after (hostOps1 (F := Ideal)) W (Proc.devRef .tc main_v22) = W (Proc.devRef .tc main_v22) := by
  after_results

theorem stretch1_keeps_main_v8 : StableHlo.after (hostOps1 (F := Ideal)) W (Proc.devRef .tc main_v8) = W (Proc.devRef .tc main_v8) := by
  after_results

theorem stretch1_keeps_main_arg1 : StableHlo.after (hostOps1 (F := Ideal)) W (Proc.devRef .tc main_arg1) = W (Proc.devRef .tc main_arg1) := by
  after_results

theorem stretch1_keeps_main_arg2 : StableHlo.after (hostOps1 (F := Ideal)) W (Proc.devRef .tc main_arg2) = W (Proc.devRef .tc main_arg2) := by
  after_results

theorem stretch1_keeps_main_arg6 : StableHlo.after (hostOps1 (F := Ideal)) W (Proc.devRef .tc main_arg6) = W (Proc.devRef .tc main_arg6) := by
  after_results

theorem stretch1_keeps_main_arg7 : StableHlo.after (hostOps1 (F := Ideal)) W (Proc.devRef .tc main_arg7) = W (Proc.devRef .tc main_arg7) := by
  after_results

theorem stretch1_keeps_main_arg9 : StableHlo.after (hostOps1 (F := Ideal)) W (Proc.devRef .tc main_arg9) = W (Proc.devRef .tc main_arg9) := by
  after_results

theorem stretch1_keeps_main_arg10 : StableHlo.after (hostOps1 (F := Ideal)) W (Proc.devRef .tc main_arg10) = W (Proc.devRef .tc main_arg10) := by
  after_results

theorem stretch1_keeps_main_arg11 : StableHlo.after (hostOps1 (F := Ideal)) W (Proc.devRef .tc main_arg11) = W (Proc.devRef .tc main_arg11) := by
  after_results

/-! ## Between the second and the third launch -/

theorem stretch2_scaled : StableHlo.after (hostOps2 (F := Ideal)) W (Proc.devRef .tc main_v48)
    = scaledSums (W (Proc.devRef .tc main_v36)) (W (Proc.devRef .tc main_arg1)) (W (Proc.devRef .tc main_arg2)) (W (Proc.devRef .tc main_v8)) := by
  after_results_simp <;> rfl

theorem stretch2_bias : StableHlo.after (hostOps2 (F := Ideal)) W (Proc.devRef .tc main_v49)
    = shapeCast S1x47 ((W (Proc.devRef .tc main_arg11)) : FVec Ideal S47 .f32) shapeCasts_S47_S1x47 := by
  after_results
  rfl

theorem stretch2_keeps_main_v36 : StableHlo.after (hostOps2 (F := Ideal)) W (Proc.devRef .tc main_v36) = W (Proc.devRef .tc main_v36) := by
  after_results

theorem stretch2_keeps_main_arg9 : StableHlo.after (hostOps2 (F := Ideal)) W (Proc.devRef .tc main_arg9) = W (Proc.devRef .tc main_arg9) := by
  after_results

theorem stretch2_keeps_main_arg10 : StableHlo.after (hostOps2 (F := Ideal)) W (Proc.devRef .tc main_arg10) = W (Proc.devRef .tc main_arg10) := by
  after_results

end Cert.Sage.Stretch

end
-- ==== Proof.BodyValue.lean ====
/-
  The three kernel bodies, each read at one entry of the block it stores.

  A body takes a block of 5000 rows of the node features `h`, the same rows of the neighbour means `hn`, the two
  weight matrices and the bias as a one-row matrix, and stores
      out[r, q] = (Σₖ h[r, k] · Ws[k, q] + Σₖ hn[r, k] · Wn[k, q]) + b[0, q],
  clamped below by zero in the first two layers and as it is in the last. The roundings to bfloat16 on the way into
  the matrix unit are the identity on extended reals, a matrix product into a zero accumulator is the plain
  row-by-column sum, and the bias row is repeated down the rows.
-/
import proofs.«149086_j4733053960618_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Sage.Body

open Cert.KernelIdeal Cert.KernelIdeal.Gen Idealize.ShloMosaic Idealize.ShloMosaic.TcCoe Idealize.ShloMosaic.ValueIdx

/-- Of `dot_S5000x128_S128x128_S5000x128_1_0_0_1_n_n`: the left operand's row coordinate is the output's row. -/
theorem rows_by_cols_128_lhs_row (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Of `dot_S5000x128_S128x128_S5000x128_1_0_0_1_n_n`: the right operand's column coordinate is the output's column. -/
theorem rows_by_cols_128_rhs_col (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of 5000 rows times a 128 × 128 matrix, into the zero accumulator, at `(r, q)`: row `r` against column `q`, the contracted coordinate running over the 128 features. -/
theorem rows_by_cols_128 (a : FVec Ideal S5000x128 .bf16) (w : FVec Ideal S128x128 .bf16) (r : Fin 5000) (q : Fin 128) :
    FloatOps.matmul dot_S5000x128_S128x128_S5000x128_1_0_0_1_n_n none a w (constant (F := Ideal) S5000x128 .f32 0x00000000#32) (ix2 r q)
      = ∑ k : Fin 128, a (ix2 r k) * w (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun ax => Fin.ext (by
    match ax with
    | ⟨0, _⟩ => exact rows_by_cols_128_lhs_row _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun ax => Fin.ext (by
    match ax with
    | ⟨0, _⟩ => exact (dot_S5000x128_S128x128_S5000x128_1_0_0_1_n_n.rhsIdx_val_of_single rfl _ _).trans hk
    | ⟨1, _⟩ => exact rows_by_cols_128_rhs_col _ _)
  rw [el, er]

/-- Of `dot_S5000x128_S128x47_S5000x47_1_0_0_1_n_n`: the left operand's row coordinate is the output's row. -/
theorem rows_by_cols_47_lhs_row (i : S5000x47.Idx) (c : dot_S5000x128_S128x47_S5000x47_1_0_0_1_n_n.contr.Idx) : (dot_S5000x128_S128x47_S5000x47_1_0_0_1_n_n.lhsIdx i c 0).val = (i 0).val := by
  unfold DotDims.lhsIdx
  rw [dif_neg (show ¬(0 : Fin S5000x128.rank) ∈ dot_S5000x128_S128x47_S5000x47_1_0_0_1_n_n.lhsBatch by decide), dif_pos (show (0 : Fin S5000x128.rank) ∈ dot_S5000x128_S128x47_S5000x47_1_0_0_1_n_n.lhsNonContracting by decide)]
  rfl
/-- Of `dot_S5000x128_S128x47_S5000x47_1_0_0_1_n_n`: the right operand's column coordinate is the output's column. -/
theorem rows_by_cols_47_rhs_col (i : S5000x47.Idx) (c : dot_S5000x128_S128x47_S5000x47_1_0_0_1_n_n.contr.Idx) : (dot_S5000x128_S128x47_S5000x47_1_0_0_1_n_n.rhsIdx i c 1).val = (i 1).val := by
  unfold DotDims.rhsIdx
  rw [dif_neg (show ¬(1 : Fin S128x47.rank) ∈ dot_S5000x128_S128x47_S5000x47_1_0_0_1_n_n.rhsBatch by decide), dif_pos (show (1 : Fin S128x47.rank) ∈ dot_S5000x128_S128x47_S5000x47_1_0_0_1_n_n.rhsNonContracting by decide)]
  rfl

/-- The same with a 128 × 47 matrix: row `r` against column `q` of the 47 classes. -/
theorem rows_by_cols_47 (a : FVec Ideal S5000x128 .bf16) (w : FVec Ideal S128x47 .bf16) (r : Fin 5000) (q : Fin 47) :
    FloatOps.matmul dot_S5000x128_S128x47_S5000x47_1_0_0_1_n_n none a w (constant (F := Ideal) S5000x47 .f32 0x00000000#32) (ix2 r q)
      = ∑ k : Fin 128, a (ix2 r k) * w (ix2 k q) := by
  rw [Ideal.matmul_constant_zero_apply, ← Equiv.sum_comp (contrEquiv1 dot_S5000x128_S128x47_S5000x47_1_0_0_1_n_n 128 rfl rfl).symm]
  refine Finset.sum_congr rfl fun k _ => ?_
  have hk := contrEquiv1_symm_val dot_S5000x128_S128x47_S5000x47_1_0_0_1_n_n 128 rfl rfl k
  have el : dot_S5000x128_S128x47_S5000x47_1_0_0_1_n_n.lhsIdx (ix2 r q) ((contrEquiv1 dot_S5000x128_S128x47_S5000x47_1_0_0_1_n_n 128 rfl rfl).symm k) = ix2 r k := funext fun ax => Fin.ext (by
    match ax with
    | ⟨0, _⟩ => exact rows_by_cols_47_lhs_row _ _
    | ⟨1, _⟩ => exact (dot_S5000x128_S128x47_S5000x47_1_0_0_1_n_n.lhsIdx_val_of_single rfl _ _).trans hk)
  have er : dot_S5000x128_S128x47_S5000x47_1_0_0_1_n_n.rhsIdx (ix2 r q) ((contrEquiv1 dot_S5000x128_S128x47_S5000x47_1_0_0_1_n_n 128 rfl rfl).symm k) = ix2 k q := funext fun ax => Fin.ext (by
    match ax with
    | ⟨0, _⟩ => exact (dot_S5000x128_S128x47_S5000x47_1_0_0_1_n_n.rhsIdx_val_of_single rfl _ _).trans hk
    | ⟨1, _⟩ => exact rows_by_cols_47_rhs_col _ _)
  rw [el, er]

/-- The bias, a one-row matrix, repeated down the 5000 rows of a block and read at `(r, q)`: its entry `(0, q)`. The
    shape cast in front of the broadcast is between equal shapes and changes nothing. -/
theorem bias_row_128 (b : Vec Ideal S1x128 .f32) (r : Fin 5000) (q : Fin 128) :
    broadcastTo S5000x128 (shapeCast S1x128 b shapeCasts_S1x128_S1x128) broadcasts_S1x128_S5000x128 (ix2 r q) = b (ix2 (0 : Fin 1) q) := by
  rw [shapeCast_self]
  exact broadcastTo_1b_ab_apply b broadcasts_S1x128_S5000x128 r q

theorem bias_row_47 (b : Vec Ideal S1x47 .f32) (r : Fin 5000) (q : Fin 47) :
    broadcastTo S5000x47 (shapeCast S1x47 b shapeCasts_S1x47_S1x47) broadcasts_S1x47_S5000x47 (ix2 r q) = b (ix2 (0 : Fin 1) q) := by
  rw [shapeCast_self]
  exact broadcastTo_1b_ab_apply b broadcasts_S1x47_S5000x47 r q

/-- FIRST LAYER's body at `(r, q)`: the two row-by-column sums, the bias, clamped below by zero. -/
theorem body0_apply (h hn : Vec Ideal S5000x128 .f32) (ws wn : Vec Ideal S128x128 .f32) (b : Vec Ideal S1x128 .f32)
    (r : Fin 5000) (q : Fin 128) :
    k0_pay1 (F := Ideal) h hn ws wn b (ix2 r q)
      = max (((∑ k : Fin 128, h (ix2 r k) * ws (ix2 k q)) + (∑ k : Fin 128, hn (ix2 r k) * wn (ix2 k q))) + b (ix2 (0 : Fin 1) q))
          (Ideal.ofBits .f32 0x00000000#32) := by
  unfold k0_pay1
  refine congrArg₂ max (congrArg₂ (· + ·) (congrArg₂ (· + ·) ?_ ?_) ?_) rfl
  · exact rows_by_cols_128 _ _ r q
  · rw [shapeCast_self]; exact rows_by_cols_128 _ _ r q
  · exact bias_row_128 b r q

/-- SECOND LAYER's body at `(r, q)`: the same function (its text casts both feature blocks between equal shapes). -/
theorem body1_apply (h hn : Vec Ideal S5000x128 .f32) (ws wn : Vec Ideal S128x128 .f32) (b : Vec Ideal S1x128 .f32)
    (r : Fin 5000) (q : Fin 128) :
    k1_pay1 (F := Ideal) h hn ws wn b (ix2 r q)
      = max (((∑ k : Fin 128, h (ix2 r k) * ws (ix2 k q)) + (∑ k : Fin 128, hn (ix2 r k) * wn (ix2 k q))) + b (ix2 (0 : Fin 1) q))
          (Ideal.ofBits .f32 0x00000000#32) := by
  unfold k1_pay1
  refine congrArg₂ max (congrArg₂ (· + ·) (congrArg₂ (· + ·) ?_ ?_) ?_) rfl
  · rw [shapeCast_self]; exact rows_by_cols_128 _ _ r q
  · rw [shapeCast_self]; exact rows_by_cols_128 _ _ r q
  · exact bias_row_128 b r q

/-- LAST LAYER's body at `(r, q)`, `q` one of the 47 classes: the two sums and the bias, not clamped. -/
theorem body2_apply (h hn : Vec Ideal S5000x128 .f32) (ws wn : Vec Ideal S128x47 .f32) (b : Vec Ideal S1x47 .f32)
    (r : Fin 5000) (q : Fin 47) :
    k2_pay1 (F := Ideal) h hn ws wn b (ix2 r q)
      = ((∑ k : Fin 128, h (ix2 r k) * ws (ix2 k q)) + (∑ k : Fin 128, hn (ix2 r k) * wn (ix2 k q))) + b (ix2 (0 : Fin 1) q) := by
  unfold k2_pay1
  refine congrArg₂ (· + ·) (congrArg₂ (· + ·) ?_ ?_) ?_
  · rw [shapeCast_self]; exact rows_by_cols_47 _ _ r q
  · rw [shapeCast_self]; exact rows_by_cols_47 _ _ r q
  · exact bias_row_47 b r q

end Cert.Sage.Body

end
-- ==== Proof.LayerAt.lean ====
/-
  A layer read at one entry, with the bias as a one-row matrix.

  The kernel is handed its bias reshaped to a one-row matrix, where the reference makes the same row by a broadcast
  of the vector; either way the layer's entry `(v, q)` is
      Σₖ h[v, k] · Ws[k, q] + Σₖ hn[v, k] · Wn[k, q] + row[0, q].
-/
import proofs.«149086_j4733053960618_1_alg».proof.Proof.Spec
import Idealize.ShloMosaic.Lib.ValueLayout

noncomputable section

namespace Cert.Sage

open Cert.ReferenceIdeal Cert.ReferenceIdeal.Gen Idealize.ShloMosaic Idealize.ShloMosaic.TcCoe Idealize.ShloMosaic.ValueIdx

/-! ## The hidden layers -/

/-- A hidden layer before its clamp, the bias a one-row matrix repeated down the nodes. -/
def denseRow (h hn : Feat) (ws wn : FVec Ideal S128x128 .f32) (brow : FVec Ideal S1x128 .f32) : Feat :=
  addf (addf (Read.val_main_v19 (F := Ideal) h ws) (Read.val_main_v19 (F := Ideal) hn wn))
    (broadcastInDim S50000x128 ![0, 1] bcast_S1x128_S50000x128_0_1 brow)

/-- With the reference's row — the bias vector broadcast to one row — it is the layer. -/
theorem dense_eq_denseRow (h hn : Feat) (ws wn : FVec Ideal S128x128 .f32) (b : FVec Ideal S128 .f32) :
    dense h hn ws wn b = denseRow h hn ws wn (Read.val_main_v22 (F := Ideal) b) := rfl

/-- A one-row matrix repeated down the nodes, at `(v, q)`: the row's entry `q`. -/
theorem rowBias_apply (brow : FVec Ideal S1x128 .f32) (i : S50000x128.Idx) :
    broadcastInDim S50000x128 ![0, 1] bcast_S1x128_S50000x128_0_1 brow i = brow (Read.idx_main_v23 i) :=
  broadcastInDim_apply _ bcast_S1x128_S50000x128_0_1 brow i (Read.idx_main_v23 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- A clamped hidden layer at entry `i = (v, q)`. -/
theorem clampZero_denseRow_apply (h hn : Feat) (ws wn : FVec Ideal S128x128 .f32) (brow : FVec Ideal S1x128 .f32) (i : S50000x128.Idx) :
    clampZero (denseRow h hn ws wn brow) i
      = max (((∑ k : Fin 128, h (Read.lidx_main_v19 i k) * ws (Read.ridx_main_v19 i k))
            + (∑ k : Fin 128, hn (Read.lidx_main_v19 i k) * wn (Read.ridx_main_v19 i k))) + brow (Read.idx_main_v23 i))
          (Ideal.ofBits .f32 0x00000000#32) := by
  show max ((Read.val_main_v19 (F := Ideal) h ws i + Read.val_main_v19 (F := Ideal) hn wn i)
      + broadcastInDim S50000x128 ![0, 1] bcast_S1x128_S50000x128_0_1 brow i) (Read.val_main_call0_v0 (F := Ideal) i) = _
  rw [Read.val_main_v19_apply, Read.val_main_v19_apply, rowBias_apply, Read.val_main_call0_v0_apply]
  rfl

/-! ## The output layer -/

/-- The output layer with the bias a one-row matrix. -/
def denseOutRow (h hn : Feat) (ws wn : FVec Ideal S128x47 .f32) (brow : FVec Ideal S1x47 .f32) : FVec Ideal S50000x47 .f32 :=
  addf (addf (Host.dotGeneral dot_S50000x128_S128x47_S50000x47_1_0_0_1_n_n none h ws) (Host.dotGeneral dot_S50000x128_S128x47_S50000x47_1_0_0_1_n_n none hn wn))
    (broadcastInDim S50000x47 ![0, 1] bcast_S1x47_S50000x47_0_1 brow)

theorem denseOut_eq_denseOutRow (h hn : Feat) (ws wn : FVec Ideal S128x47 .f32) (b : FVec Ideal S47 .f32) :
    denseOut h hn ws wn b = denseOutRow h hn ws wn (Read.val_main_v74 (F := Ideal) b) := rfl

/-- Node features times a 128 × 47 matrix, at `(v, q)`: the sum over the 128 features of row `v` against column `q`. -/
theorem featuresTimesOut_apply (h : Feat) (w : FVec Ideal S128x47 .f32) (i : S50000x47.Idx) :
    Host.dotGeneral dot_S50000x128_S128x47_S50000x47_1_0_0_1_n_n none h w i = ∑ k : Fin 128, h (Read.lidx_main_v71 i k) * w (Read.ridx_main_v71 i k) := by
  simp only [Host.dotGeneral]
  rw [Ideal.dotGeneral_apply, ← Equiv.sum_comp (contrEquiv1 dot_S50000x128_S128x47_S50000x47_1_0_0_1_n_n 128 rfl rfl).symm]
  refine Finset.sum_congr rfl fun k _ => ?_
  have hk := contrEquiv1_symm_val dot_S50000x128_S128x47_S50000x47_1_0_0_1_n_n 128 rfl rfl k
  have el : dot_S50000x128_S128x47_S50000x47_1_0_0_1_n_n.lhsIdx i ((contrEquiv1 dot_S50000x128_S128x47_S50000x47_1_0_0_1_n_n 128 rfl rfl).symm k) = Read.lidx_main_v71 i k := funext fun a => Fin.ext (by
    match a with
    | ⟨0, _⟩ => exact Read.lhs_main_v71_0 _ _
    | ⟨1, _⟩ => exact (Read.lhs_main_v71_1 _ _).trans hk)
  have er : dot_S50000x128_S128x47_S50000x47_1_0_0_1_n_n.rhsIdx i ((contrEquiv1 dot_S50000x128_S128x47_S50000x47_1_0_0_1_n_n 128 rfl rfl).symm k) = Read.ridx_main_v71 i k := funext fun a => Fin.ext (by
    match a with
    | ⟨0, _⟩ => exact (Read.rhs_main_v71_0 _ _).trans hk
    | ⟨1, _⟩ => exact Read.rhs_main_v71_1 _ _)
  rw [el, er]

theorem rowBiasOut_apply (brow : FVec Ideal S1x47 .f32) (i : S50000x47.Idx) :
    broadcastInDim S50000x47 ![0, 1] bcast_S1x47_S50000x47_0_1 brow i = brow (Read.idx_main_v75 i) :=
  broadcastInDim_apply _ bcast_S1x47_S50000x47_0_1 brow i (Read.idx_main_v75 i) (fun a => match a with
    | ⟨0, _⟩ => by show 0 = if (1 : Nat) = 1 then 0 else (i 0).val; rw [if_pos rfl]
    | ⟨1, _⟩ => by show (i 1).val = if (47 : Nat) = 1 then 0 else (i 1).val; rw [if_neg (by decide)])

/-- The output layer at entry `i = (v, q)`, `q` one of the 47 classes. -/
theorem denseOutRow_apply (h hn : Feat) (ws wn : FVec Ideal S128x47 .f32) (brow : FVec Ideal S1x47 .f32) (i : S50000x47.Idx) :
    denseOutRow h hn ws wn brow i
      = ((∑ k : Fin 128, h (Read.lidx_main_v71 i k) * ws (Read.ridx_main_v71 i k))
          + (∑ k : Fin 128, hn (Read.lidx_main_v71 i k) * wn (Read.ridx_main_v71 i k))) + brow (Read.idx_main_v75 i) := by
  show (Host.dotGeneral dot_S50000x128_S128x47_S50000x47_1_0_0_1_n_n none h ws i + Host.dotGeneral dot_S50000x128_S128x47_S50000x47_1_0_0_1_n_n none hn wn i)
      + broadcastInDim S50000x47 ![0, 1] bcast_S1x47_S50000x47_0_1 brow i = _
  rw [featuresTimesOut_apply, featuresTimesOut_apply, rowBiasOut_apply]

/-! ## The bias row: reshaped, or broadcast -/

/-- The bias vector reshaped to one row is the bias vector broadcast to one row. -/
theorem reshape_bias_eq (b : FVec Ideal S128 .f32) (hc : S128.ShapeCasts S1x128) :
    shapeCast S1x128 b hc = Read.val_main_v22 (F := Ideal) b := by
  funext j
  obtain ⟨u, q, rfl⟩ : ∃ (u : Fin 1) (q : Fin 128), j = ix2 u q := ⟨j 0, j 1, eq_ix2 j⟩
  rw [Read.val_main_v22_apply]
  exact (shapeCast_a_1a_apply b hc u q).trans (congrArg b (funext fun a => match a with | ⟨0, _⟩ => rfl))

theorem reshape_biasOut_eq (b : FVec Ideal S47 .f32) (hc : S47.ShapeCasts S1x47) :
    shapeCast S1x47 b hc = Read.val_main_v74 (F := Ideal) b := by
  funext j
  obtain ⟨u, q, rfl⟩ : ∃ (u : Fin 1) (q : Fin 47), j = ix2 u q := ⟨j 0, j 1, eq_ix2 j⟩
  rw [Read.val_main_v74_apply]
  exact (shapeCast_a_1a_apply b hc u q).trans (congrArg b (funext fun a => match a with | ⟨0, _⟩ => rfl))

end Cert.Sage

end
-- ==== Proof.Region0.lean ====
/-
  From the blocks a launch writes back to its output array, for the first layer's launch.

  A launch runs its body at ten grid points. At point `t` the two feature windows hold rows `5000 t … 5000 t + 4999`
  of their arrays, the weight and bias windows the whole of theirs, and the body's result is written back to the same
  rows of the output array. The ten row blocks are disjoint and fill the array, and the body's entry `(r, q)` at point
  `t` is the layer's entry `(5000 t + r, q)`; so after the launch the output array IS the layer of the arrays the launch
  was entered with. Stated for any contents `V` at the launch's entry.
-/
import proofs.«149086_j4733053960618_1_alg».proof.Proof.KernelIdealFrameP
import proofs.«149086_j4733053960618_1_alg».proof.Proof.BodyValue
import proofs.«149086_j4733053960618_1_alg».proof.Proof.LayerAt

set_option maxRecDepth 16384

noncomputable section

namespace Cert.Sage.Region

open Cert.KernelIdeal Cert.KernelIdeal.Gen Cert.KernelIdeal.GenP Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The offset of every load and store of a body is zero on both axes. -/
theorem origin0 : (![0, 0] : Fin 2 → Nat) = fun _ => 0 := funext fun a => by fin_cases a <;> rfl

/-! ## Launch 0 -/

/-- Where each window of launch 0 sits at grid point `t`, decided over the ten points: the two feature windows move
    with the output, block `t` of rows; the weights and the bias row stay at the whole array. -/
theorem where0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` — rows `5000 t` to `5000 t + 4999` — of the layer of the arrays as the
    launch finds them: the body's entry `(r, q)` sums row `r` of its feature blocks, which are rows `5000 t + r` of
    the arrays, against column `q` of the whole weight matrices. -/
theorem written0 (c : Dev nD) (t : Fin cfg0.N) :
    (dat0 (F := Ideal) V c).flushed 5 t = ((cfg0.win 5).blk t).view.read (Elt Ideal) (clampZero (denseRow (V c (Pipeline.arrRef spec0 0)) (V c (Pipeline.arrRef spec0 1)) (V c (Pipeline.arrRef spec0 2)) (V c (Pipeline.arrRef spec0 3)) (V c (Pipeline.arrRef spec0 4)))) := by
  show (cfg0.win 5).cut (grid0.coords t) ((dat0 (F := Ideal) V c).after 5 t) = _
  rw [after0_5]
  unfold out0_5
  rw [View.canon_unit_zero origin0]
  simp only [View.ld_unit_zero (S := S5000x128) origin0, View.ld_unit_zero (S := S128x128) origin0, View.ld_unit_zero (S := S1x128) origin0]
  obtain ⟨e00, e01, e10, e11, e20, e21, e30, e31, e40, e41, e50, e51⟩ := where0 t
  funext j
  obtain ⟨r, q, rfl⟩ : ∃ (r : Fin 5000) (q : Fin 128), j = ix2 r q := ⟨j 0, j 1, eq_ix2 j⟩
  refine (Body.body0_apply _ _ _ _ _ r q).trans ?_
  refine ((clampZero_denseRow_apply _ _ _ _ _ _).trans ?_).symm
  refine congrArg₂ max (congrArg₂ (· + ·) (congrArg₂ (· + ·) (Finset.sum_congr rfl fun k _ => congrArg₂ (· * ·) ?_ ?_) (Finset.sum_congr rfl fun k _ => congrArg₂ (· * ·) ?_ ?_)) ?_) rfl
  · show (V c (Pipeline.arrRef spec0 0)) _ = (V c (Pipeline.arrRef spec0 0)) (((cfg0.win 0).blk t).view.emb (ix2 r k))
    refine congrArg _ (funext fun a => Fin.ext ?_)
    match a with
    | ⟨0, _⟩ => show win0_5.index t (0 : Fin 2) * 5000 + 1 * r.val = win0_0.index t (0 : Fin 2) * 5000 + 1 * r.val; omega
    | ⟨1, _⟩ => show k.val = win0_0.index t (1 : Fin 2) * 128 + 1 * k.val; omega
  · show (V c (Pipeline.arrRef spec0 2)) _ = (V c (Pipeline.arrRef spec0 2)) (((cfg0.win 2).blk t).view.emb (ix2 k q))
    refine congrArg _ (funext fun a => Fin.ext ?_)
    match a with
    | ⟨0, _⟩ => show k.val = win0_2.index t (0 : Fin 2) * 128 + 1 * k.val; omega
    | ⟨1, _⟩ => show win0_5.index t (1 : Fin 2) * 128 + 1 * q.val = win0_2.index t (1 : Fin 2) * 128 + 1 * q.val; omega
  · show (V c (Pipeline.arrRef spec0 1)) _ = (V c (Pipeline.arrRef spec0 1)) (((cfg0.win 1).blk t).view.emb (ix2 r k))
    refine congrArg _ (funext fun a => Fin.ext ?_)
    match a with
    | ⟨0, _⟩ => show win0_5.index t (0 : Fin 2) * 5000 + 1 * r.val = win0_1.index t (0 : Fin 2) * 5000 + 1 * r.val; omega
    | ⟨1, _⟩ => show k.val = win0_1.index t (1 : Fin 2) * 128 + 1 * k.val; omega
  · show (V c (Pipeline.arrRef spec0 3)) _ = (V c (Pipeline.arrRef spec0 3)) (((cfg0.win 3).blk t).view.emb (ix2 k q))
    refine congrArg _ (funext fun a => Fin.ext ?_)
    match a with
    | ⟨0, _⟩ => show k.val = win0_3.index t (0 : Fin 2) * 128 + 1 * k.val; omega
    | ⟨1, _⟩ => show win0_5.index t (1 : Fin 2) * 128 + 1 * q.val = win0_3.index t (1 : Fin 2) * 128 + 1 * q.val; omega
  · show (V c (Pipeline.arrRef spec0 4)) _ = (V c (Pipeline.arrRef spec0 4)) (((cfg0.win 4).blk t).view.emb (ix2 (0 : Fin 1) q))
    refine congrArg _ (funext fun a => Fin.ext ?_)
    match a with
    | ⟨0, _⟩ => show 0 = win0_4.index t (0 : Fin 2) * 1 + 1 * 0; omega
    | ⟨1, _⟩ => show win0_5.index t (1 : Fin 2) * 128 + 1 * q.val = win0_4.index t (1 : Fin 2) * 128 + 1 * q.val; omega

/-- An entry of the output array is in point `t`'s block iff each coordinate is in the block's range on its axis. -/
theorem inBlock0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- Every entry `(v, q)` of the output array is written: by the point `v / 5000`. -/
theorem everyRow0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  refine ⟨⟨(i 0).val / 5000, by show (i 0).val / 5000 < grid0.N; omega⟩, flush0_5 _, ?_⟩
  obtain ⟨-, -, -, -, -, -, -, -, -, -, e50, e51⟩ := where0 ⟨(i 0).val / 5000, by show (i 0).val / 5000 < grid0.N; omega⟩
  rw [inBlock0]
  intro a
  match a with
  | ⟨0, _⟩ => show win0_5.index _ (0 : Fin 2) * 5000 ≤ (i 0).val ∧ (i 0).val < win0_5.index _ (0 : Fin 2) * 5000 + 5000; rw [e50]; show (i 0).val / 5000 * 5000 ≤ (i 0).val ∧ (i 0).val < (i 0).val / 5000 * 5000 + 5000; omega
  | ⟨1, _⟩ => show win0_5.index _ (1 : Fin 2) * 128 ≤ (i 1).val ∧ (i 1).val < win0_5.index _ (1 : Fin 2) * 128 + 128; rw [e51]; omega

/-- THE OUTPUT ARRAY of launch 0 after its ten points: the layer of the arrays as the launch finds them. -/
theorem array0 (c : Dev nD) :
    (dat0 (F := Ideal) V c).arrAt 5 cfg0.N = (clampZero (denseRow (V c (Pipeline.arrRef spec0 0)) (V c (Pipeline.arrRef spec0 1)) (V c (Pipeline.arrRef spec0 2)) (V c (Pipeline.arrRef spec0 3)) (V c (Pipeline.arrRef spec0 4)))) :=
  (dat0 (F := Ideal) V c).arrAt_eq_of_cover 5 _ (fun t _ => written0 V c t) everyRow0

/-- Launch 0's output array, given what its five input arrays are when it is entered: the features `h`, the
    neighbour means `hn`, the two weight matrices, and the bias vector `b` reshaped to one row. -/
theorem output0 (c : Dev nD) (h hn : Feat) (ws wn : FVec Ideal S128x128 .f32) (b : FVec Ideal S128 .f32)
    (e0 : V c main_arg0 = h) (e1 : V c main_v20 = hn) (e2 : V c main_arg3 = ws) (e3 : V c main_arg4 = wn)
    (e4 : V c main_v21 = shapeCast S1x128 b shapeCasts_S128_S1x128) :
    (dat0 (F := Ideal) V c).arrAt 5 cfg0.N = (clampZero (dense h hn ws wn b) : Feat) := by
  refine (array0 V c).trans ?_
  show clampZero (denseRow (V c main_arg0) (V c main_v20) (V c main_arg3) (V c main_arg4) (V c main_v21)) = _
  rw [e0, e1, e2, e3, e4, reshape_bias_eq, ← dense_eq_denseRow]

end Cert.Sage.Region

end
-- ==== Proof.Region1.lean ====
/-
  From the blocks a launch writes back to its output array, for the second layer's launch.

  A launch runs its body at ten grid points. At point `t` the two feature windows hold rows `5000 t … 5000 t + 4999`
  of their arrays, the weight and bias windows the whole of theirs, and the body's result is written back to the same
  rows of the output array. The ten row blocks are disjoint and fill the array, and the body's entry `(r, q)` at point
  `t` is the layer's entry `(5000 t + r, q)`; so after the launch the output array IS the layer of the arrays the launch
  was entered with. Stated for any contents `V` at the launch's entry.
-/
import proofs.«149086_j4733053960618_1_alg».proof.Proof.KernelIdealFrameP
import proofs.«149086_j4733053960618_1_alg».proof.Proof.BodyValue
import proofs.«149086_j4733053960618_1_alg».proof.Proof.LayerAt

set_option maxRecDepth 16384

noncomputable section

namespace Cert.Sage.Region

open Cert.KernelIdeal Cert.KernelIdeal.Gen Cert.KernelIdeal.GenP Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The offset of every load and store of a body is zero on both axes. -/
theorem origin1 : (![0, 0] : Fin 2 → Nat) = fun _ => 0 := funext fun a => by fin_cases a <;> rfl

/-! ## Launch 1 -/

/-- Where each window of launch 1 sits at grid point `t`, decided over the ten points: the two feature windows move
    with the output, block `t` of rows; the weights and the bias row stay at the whole array. -/
theorem where1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

set_option maxHeartbeats 1000000 in
/-- WHAT POINT `t` WRITES BACK is block `t` — rows `5000 t` to `5000 t + 4999` — of the layer of the arrays as the
    launch finds them: the body's entry `(r, q)` sums row `r` of its feature blocks, which are rows `5000 t + r` of
    the arrays, against column `q` of the whole weight matrices. -/
theorem written1 (c : Dev nD) (t : Fin cfg1.N) :
    (dat1 (F := Ideal) V c).flushed 5 t = ((cfg1.win 5).blk t).view.read (Elt Ideal) (clampZero (denseRow (V c (Pipeline.arrRef spec1 0)) (V c (Pipeline.arrRef spec1 1)) (V c (Pipeline.arrRef spec1 2)) (V c (Pipeline.arrRef spec1 3)) (V c (Pipeline.arrRef spec1 4)))) := by
  show (cfg1.win 5).cut (grid1.coords t) ((dat1 (F := Ideal) V c).after 5 t) = _
  rw [after1_5]
  unfold out1_5
  rw [View.canon_unit_zero origin1]
  simp only [View.ld_unit_zero (S := S5000x128) origin1, View.ld_unit_zero (S := S128x128) origin1, View.ld_unit_zero (S := S1x128) origin1]
  obtain ⟨e00, e01, e10, e11, e20, e21, e30, e31, e40, e41, e50, e51⟩ := where1 t
  funext j
  obtain ⟨r, q, rfl⟩ : ∃ (r : Fin 5000) (q : Fin 128), j = ix2 r q := ⟨j 0, j 1, eq_ix2 j⟩
  refine (Body.body1_apply _ _ _ _ _ r q).trans ?_
  refine ((clampZero_denseRow_apply _ _ _ _ _ _).trans ?_).symm
  refine congrArg₂ max (congrArg₂ (· + ·) (congrArg₂ (· + ·) (Finset.sum_congr rfl fun k _ => congrArg₂ (· * ·) ?_ ?_) (Finset.sum_congr rfl fun k _ => congrArg₂ (· * ·) ?_ ?_)) ?_) rfl
  · show (V c (Pipeline.arrRef spec1 0)) _ = (V c (Pipeline.arrRef spec1 0)) (((cfg1.win 0).blk t).view.emb (ix2 r k))
    refine congrArg _ (funext fun a => Fin.ext ?_)
    match a with
    | ⟨0, _⟩ => show win1_5.index t (0 : Fin 2) * 5000 + 1 * r.val = win1_0.index t (0 : Fin 2) * 5000 + 1 * r.val; omega
    | ⟨1, _⟩ => show k.val = win1_0.index t (1 : Fin 2) * 128 + 1 * k.val; omega
  · show (V c (Pipeline.arrRef spec1 2)) _ = (V c (Pipeline.arrRef spec1 2)) (((cfg1.win 2).blk t).view.emb (ix2 k q))
    refine congrArg _ (funext fun a => Fin.ext ?_)
    match a with
    | ⟨0, _⟩ => show k.val = win1_2.index t (0 : Fin 2) * 128 + 1 * k.val; omega
    | ⟨1, _⟩ => show win1_5.index t (1 : Fin 2) * 128 + 1 * q.val = win1_2.index t (1 : Fin 2) * 128 + 1 * q.val; omega
  · show (V c (Pipeline.arrRef spec1 1)) _ = (V c (Pipeline.arrRef spec1 1)) (((cfg1.win 1).blk t).view.emb (ix2 r k))
    refine congrArg _ (funext fun a => Fin.ext ?_)
    match a with
    | ⟨0, _⟩ => show win1_5.index t (0 : Fin 2) * 5000 + 1 * r.val = win1_1.index t (0 : Fin 2) * 5000 + 1 * r.val; omega
    | ⟨1, _⟩ => show k.val = win1_1.index t (1 : Fin 2) * 128 + 1 * k.val; omega
  · show (V c (Pipeline.arrRef spec1 3)) _ = (V c (Pipeline.arrRef spec1 3)) (((cfg1.win 3).blk t).view.emb (ix2 k q))
    refine congrArg _ (funext fun a => Fin.ext ?_)
    match a with
    | ⟨0, _⟩ => show k.val = win1_3.index t (0 : Fin 2) * 128 + 1 * k.val; omega
    | ⟨1, _⟩ => show win1_5.index t (1 : Fin 2) * 128 + 1 * q.val = win1_3.index t (1 : Fin 2) * 128 + 1 * q.val; omega
  · show (V c (Pipeline.arrRef spec1 4)) _ = (V c (Pipeline.arrRef spec1 4)) (((cfg1.win 4).blk t).view.emb (ix2 (0 : Fin 1) q))
    refine congrArg _ (funext fun a => Fin.ext ?_)
    match a with
    | ⟨0, _⟩ => show 0 = win1_4.index t (0 : Fin 2) * 1 + 1 * 0; omega
    | ⟨1, _⟩ => show win1_5.index t (1 : Fin 2) * 128 + 1 * q.val = win1_4.index t (1 : Fin 2) * 128 + 1 * q.val; omega

/-- An entry of the output array is in point `t`'s block iff each coordinate is in the block's range on its axis. -/
theorem inBlock1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v36).slice (win1_5.rect t)).set ↔ _
  rw [View.set_slice_whole, Rect.mem_set_unit]
  exact Iff.rfl

/-- Every entry `(v, q)` of the output array is written: by the point `v / 5000`. -/
theorem everyRow1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 10 := N_1
  refine ⟨⟨(i 0).val / 5000, by show (i 0).val / 5000 < grid1.N; omega⟩, flush1_5 _, ?_⟩
  obtain ⟨-, -, -, -, -, -, -, -, -, -, e50, e51⟩ := where1 ⟨(i 0).val / 5000, by show (i 0).val / 5000 < grid1.N; omega⟩
  rw [inBlock1]
  intro a
  match a with
  | ⟨0, _⟩ => show win1_5.index _ (0 : Fin 2) * 5000 ≤ (i 0).val ∧ (i 0).val < win1_5.index _ (0 : Fin 2) * 5000 + 5000; rw [e50]; show (i 0).val / 5000 * 5000 ≤ (i 0).val ∧ (i 0).val < (i 0).val / 5000 * 5000 + 5000; omega
  | ⟨1, _⟩ => show win1_5.index _ (1 : Fin 2) * 128 ≤ (i 1).val ∧ (i 1).val < win1_5.index _ (1 : Fin 2) * 128 + 128; rw [e51]; omega

/-- THE OUTPUT ARRAY of launch 1 after its ten points: the layer of the arrays as the launch finds them. -/
theorem array1 (c : Dev nD) :
    (dat1 (F := Ideal) V c).arrAt 5 cfg1.N = (clampZero (denseRow (V c (Pipeline.arrRef spec1 0)) (V c (Pipeline.arrRef spec1 1)) (V c (Pipeline.arrRef spec1 2)) (V c (Pipeline.arrRef spec1 3)) (V c (Pipeline.arrRef spec1 4)))) :=
  (dat1 (F := Ideal) V c).arrAt_eq_of_cover 5 _ (fun t _ => written1 V c t) everyRow1

/-- Launch 1's output array, given what its five input arrays are when it is entered: the features `h`, the
    neighbour means `hn`, the two weight matrices, and the bias vector `b` reshaped to one row. -/
theorem output1 (c : Dev nD) (h hn : Feat) (ws wn : FVec Ideal S128x128 .f32) (b : FVec Ideal S128 .f32)
    (e0 : V c main_v22 = h) (e1 : V c main_v34 = hn) (e2 : V c main_arg6 = ws) (e3 : V c main_arg7 = wn)
    (e4 : V c main_v35 = shapeCast S1x128 b shapeCasts_S128_S1x128) :
    (dat1 (F := Ideal) V c).arrAt 5 cfg1.N = (clampZero (dense h hn ws wn b) : Feat) := by
  refine (array1 V c).trans ?_
  show clampZero (denseRow (V c main_v22) (V c main_v34) (V c main_arg6) (V c main_arg7) (V c main_v35)) = _
  rw [e0, e1, e2, e3, e4, reshape_bias_eq, ← dense_eq_denseRow]

end Cert.Sage.Region

end
-- ==== Proof.Region2.lean ====
/-
  From the blocks a launch writes back to its output array, for the output layer's launch.

  A launch runs its body at ten grid points. At point `t` the two feature windows hold rows `5000 t … 5000 t + 4999`
  of their arrays, the weight and bias windows the whole of theirs, and the body's result is written back to the same
  rows of the output array. The ten row blocks are disjoint and fill the array, and the body's entry `(r, q)` at point
  `t` is the layer's entry `(5000 t + r, q)`; so after the launch the output array IS the layer of the arrays the launch
  was entered with. Stated for any contents `V` at the launch's entry.
-/
import proofs.«149086_j4733053960618_1_alg».proof.Proof.KernelIdealFrameP
import proofs.«149086_j4733053960618_1_alg».proof.Proof.BodyValue
import proofs.«149086_j4733053960618_1_alg».proof.Proof.LayerAt

set_option maxRecDepth 16384

noncomputable section

namespace Cert.Sage.Region

open Cert.KernelIdeal Cert.KernelIdeal.Gen Cert.KernelIdeal.GenP Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The offset of every load and store of a body is zero on both axes. -/
theorem origin2 : (![0, 0] : Fin 2 → Nat) = fun _ => 0 := funext fun a => by fin_cases a <;> rfl

/-! ## Launch 2 -/

/-- Where each window of launch 2 sits at grid point `t`, decided over the ten points: the two feature windows move
    with the output, block `t` of rows; the weights and the bias row stay at the whole array. -/
theorem where2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

set_option maxHeartbeats 1000000 in
/-- WHAT POINT `t` WRITES BACK is block `t` — rows `5000 t` to `5000 t + 4999` — of the layer of the arrays as the
    launch finds them: the body's entry `(r, q)` sums row `r` of its feature blocks, which are rows `5000 t + r` of
    the arrays, against column `q` of the whole weight matrices. -/
theorem written2 (c : Dev nD) (t : Fin cfg2.N) :
    (dat2 (F := Ideal) V c).flushed 5 t = ((cfg2.win 5).blk t).view.read (Elt Ideal) (denseOutRow (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 (F := Ideal) V c).after 5 t) = _
  rw [after2_5]
  unfold out2_5
  rw [View.canon_unit_zero origin2]
  simp only [View.ld_unit_zero (S := S5000x128) origin2, View.ld_unit_zero (S := S128x47) origin2, View.ld_unit_zero (S := S1x47) origin2]
  obtain ⟨e00, e01, e10, e11, e20, e21, e30, e31, e40, e41, e50, e51⟩ := where2 t
  funext j
  obtain ⟨r, q, rfl⟩ : ∃ (r : Fin 5000) (q : Fin 47), j = ix2 r q := ⟨j 0, j 1, eq_ix2 j⟩
  refine (Body.body2_apply _ _ _ _ _ r q).trans ?_
  refine ((denseOutRow_apply _ _ _ _ _ _).trans ?_).symm
  refine congrArg₂ (· + ·) (congrArg₂ (· + ·) (Finset.sum_congr rfl fun k _ => congrArg₂ (· * ·) ?_ ?_) (Finset.sum_congr rfl fun k _ => congrArg₂ (· * ·) ?_ ?_)) ?_
  · show (V c (Pipeline.arrRef spec2 0)) _ = (V c (Pipeline.arrRef spec2 0)) (((cfg2.win 0).blk t).view.emb (ix2 r k))
    refine congrArg _ (funext fun a => Fin.ext ?_)
    match a with
    | ⟨0, _⟩ => show win2_5.index t (0 : Fin 2) * 5000 + 1 * r.val = win2_0.index t (0 : Fin 2) * 5000 + 1 * r.val; omega
    | ⟨1, _⟩ => show k.val = win2_0.index t (1 : Fin 2) * 128 + 1 * k.val; omega
  · show (V c (Pipeline.arrRef spec2 2)) _ = (V c (Pipeline.arrRef spec2 2)) (((cfg2.win 2).blk t).view.emb (ix2 k q))
    refine congrArg _ (funext fun a => Fin.ext ?_)
    match a with
    | ⟨0, _⟩ => show k.val = win2_2.index t (0 : Fin 2) * 128 + 1 * k.val; omega
    | ⟨1, _⟩ => show win2_5.index t (1 : Fin 2) * 47 + 1 * q.val = win2_2.index t (1 : Fin 2) * 47 + 1 * q.val; omega
  · show (V c (Pipeline.arrRef spec2 1)) _ = (V c (Pipeline.arrRef spec2 1)) (((cfg2.win 1).blk t).view.emb (ix2 r k))
    refine congrArg _ (funext fun a => Fin.ext ?_)
    match a with
    | ⟨0, _⟩ => show win2_5.index t (0 : Fin 2) * 5000 + 1 * r.val = win2_1.index t (0 : Fin 2) * 5000 + 1 * r.val; omega
    | ⟨1, _⟩ => show k.val = win2_1.index t (1 : Fin 2) * 128 + 1 * k.val; omega
  · show (V c (Pipeline.arrRef spec2 3)) _ = (V c (Pipeline.arrRef spec2 3)) (((cfg2.win 3).blk t).view.emb (ix2 k q))
    refine congrArg _ (funext fun a => Fin.ext ?_)
    match a with
    | ⟨0, _⟩ => show k.val = win2_3.index t (0 : Fin 2) * 128 + 1 * k.val; omega
    | ⟨1, _⟩ => show win2_5.index t (1 : Fin 2) * 47 + 1 * q.val = win2_3.index t (1 : Fin 2) * 47 + 1 * q.val; omega
  · show (V c (Pipeline.arrRef spec2 4)) _ = (V c (Pipeline.arrRef spec2 4)) (((cfg2.win 4).blk t).view.emb (ix2 (0 : Fin 1) q))
    refine congrArg _ (funext fun a => Fin.ext ?_)
    match a with
    | ⟨0, _⟩ => show 0 = win2_4.index t (0 : Fin 2) * 1 + 1 * 0; omega
    | ⟨1, _⟩ => show win2_5.index t (1 : Fin 2) * 47 + 1 * q.val = win2_4.index t (1 : Fin 2) * 47 + 1 * q.val; omega

/-- An entry of the output array is in point `t`'s block iff each coordinate is in the block's range on its axis. -/
theorem inBlock2 (t : Fin cfg2.N) (i : S50000x47.Idx) :
    i ∈ ((cfg2.win 5).blk t).view.set ↔ ∀ a : Fin 2, win2_5.index t a * S5000x47.size a ≤ (i a).val ∧ (i a).val < win2_5.index t a * S5000x47.size a + S5000x47.size a := by
  show i ∈ ((View.whole main_v50).slice (win2_5.rect t)).set ↔ _
  rw [View.set_slice_whole, Rect.mem_set_unit]
  exact Iff.rfl

/-- Every entry `(v, q)` of the output array is written: by the point `v / 5000`. -/
theorem everyRow2 (i : S50000x47.Idx) : ∃ t : Fin cfg2.N, (cfg2.win 5).flush t = true ∧ i ∈ ((cfg2.win 5).blk t).view.set := by
  have hi0 : (i 0).val < 50000 := (i 0).isLt
  have hi1 : (i 1).val < 47 := (i 1).isLt
  have hN : grid2.N = 10 := N_2
  refine ⟨⟨(i 0).val / 5000, by show (i 0).val / 5000 < grid2.N; omega⟩, flush2_5 _, ?_⟩
  obtain ⟨-, -, -, -, -, -, -, -, -, -, e50, e51⟩ := where2 ⟨(i 0).val / 5000, by show (i 0).val / 5000 < grid2.N; omega⟩
  rw [inBlock2]
  intro a
  match a with
  | ⟨0, _⟩ => show win2_5.index _ (0 : Fin 2) * 5000 ≤ (i 0).val ∧ (i 0).val < win2_5.index _ (0 : Fin 2) * 5000 + 5000; rw [e50]; show (i 0).val / 5000 * 5000 ≤ (i 0).val ∧ (i 0).val < (i 0).val / 5000 * 5000 + 5000; omega
  | ⟨1, _⟩ => show win2_5.index _ (1 : Fin 2) * 47 ≤ (i 1).val ∧ (i 1).val < win2_5.index _ (1 : Fin 2) * 47 + 47; rw [e51]; omega

/-- THE OUTPUT ARRAY of launch 2 after its ten points: the layer of the arrays as the launch finds them. -/
theorem array2 (c : Dev nD) :
    (dat2 (F := Ideal) V c).arrAt 5 cfg2.N = (denseOutRow (V c (Pipeline.arrRef spec2 0)) (V c (Pipeline.arrRef spec2 1)) (V c (Pipeline.arrRef spec2 2)) (V c (Pipeline.arrRef spec2 3)) (V c (Pipeline.arrRef spec2 4))) :=
  (dat2 (F := Ideal) V c).arrAt_eq_of_cover 5 _ (fun t _ => written2 V c t) everyRow2

/-- Launch 2's output array, given what its five input arrays are when it is entered: the features `h`, the
    neighbour means `hn`, the two weight matrices, and the bias vector `b` reshaped to one row. -/
theorem output2 (c : Dev nD) (h hn : Feat) (ws wn : FVec Ideal S128x47 .f32) (b : FVec Ideal S47 .f32)
    (e0 : V c main_v36 = h) (e1 : V c main_v48 = hn) (e2 : V c main_arg9 = ws) (e3 : V c main_arg10 = wn)
    (e4 : V c main_v49 = shapeCast S1x47 b shapeCasts_S47_S1x47) :
    (dat2 (F := Ideal) V c).arrAt 5 cfg2.N = (denseOut h hn ws wn b : FVec Ideal S50000x47 .f32) := by
  refine (array2 V c).trans ?_
  show (denseOutRow (V c main_v36) (V c main_v48) (V c main_arg9) (V c main_arg10) (V c main_v49)) = _
  rw [e0, e1, e2, e3, e4, reshape_biasOut_eq, ← denseOut_eq_denseOutRow]

end Cert.Sage.Region

end
-- ==== Proof.KernelValue.lean ====
/-
  The kernel's result, followed through @main.

  At each of the boundaries between the six segments the buffers a later launch will take are named: the arguments are
  never written; the reciprocal column of the clamped counts is formed before the first launch and only read after; each
  launch's output is the layer of the previous boundary's arrays; and each later stretch scales the neighbour sums of
  the previous output by that same column. At the last boundary the result buffer holds the three layers composed.
-/
import proofs.«149086_j4733053960618_1_alg».proof.Proof.KernelIdealFrameP
import proofs.«149086_j4733053960618_1_alg».proof.Proof.HostStretch
import proofs.«149086_j4733053960618_1_alg».proof.Proof.Region0
import proofs.«149086_j4733053960618_1_alg».proof.Proof.Region1
import proofs.«149086_j4733053960618_1_alg».proof.Proof.Region2

set_option maxRecDepth 16384

noncomputable section

namespace Cert.Sage.Chain

open Cert.KernelIdeal Cert.KernelIdeal.Gen Cert.KernelIdeal.GenP Cert.Sage
open Idealize.ShloMosaic Idealize.ShloMosaic.TcCoe Idealize.SL.Sem

variable (m : (ℓ : Loc nD τ sig) → Buf (Elt Ideal) ℓ) (ρ : Dev nD → PrngReg) (c : Dev nD)

/-- The first hidden layer of the launch memory's arguments, with the kernel's mean. -/
def hidden1 : Feat := clampZero (dense (m ((c : Thread nD τ).loc main_arg0)) (meanByReciprocal (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)))
/-- The second hidden layer. -/
def hidden2 : Feat := clampZero (dense (hidden1 m c) (meanByReciprocal (hidden1 m c) (m ((c : Thread nD τ).loc main_arg1)) (m ((c : Thread nD τ).loc main_arg2))) (m ((c : Thread nD τ).loc main_arg6)) (m ((c : Thread nD τ).loc main_arg7)) (m ((c : Thread nD τ).loc main_arg8)))

/-! ## Entering the first launch -/

theorem at1_main_arg0 : W1 m ρ c (Proc.devRef .tc main_arg0) = (m ((c : Thread nD τ).loc main_arg0)) := Stretch.stretch0_keeps_main_arg0 (W0 m ρ c)
theorem at1_main_arg1 : W1 m ρ c (Proc.devRef .tc main_arg1) = (m ((c : Thread nD τ).loc main_arg1)) := Stretch.stretch0_keeps_main_arg1 (W0 m ρ c)
theorem at1_main_arg2 : W1 m ρ c (Proc.devRef .tc main_arg2) = (m ((c : Thread nD τ).loc main_arg2)) := Stretch.stretch0_keeps_main_arg2 (W0 m ρ c)
theorem at1_main_arg3 : W1 m ρ c (Proc.devRef .tc main_arg3) = (m ((c : Thread nD τ).loc main_arg3)) := Stretch.stretch0_keeps_main_arg3 (W0 m ρ c)
theorem at1_main_arg4 : W1 m ρ c (Proc.devRef .tc main_arg4) = (m ((c : Thread nD τ).loc main_arg4)) := Stretch.stretch0_keeps_main_arg4 (W0 m ρ c)
theorem at1_main_arg5 : W1 m ρ c (Proc.devRef .tc main_arg5) = (m ((c : Thread nD τ).loc main_arg5)) := Stretch.stretch0_keeps_main_arg5 (W0 m ρ c)
theorem at1_main_arg6 : W1 m ρ c (Proc.devRef .tc main_arg6) = (m ((c : Thread nD τ).loc main_arg6)) := Stretch.stretch0_keeps_main_arg6 (W0 m ρ c)
theorem at1_main_arg7 : W1 m ρ c (Proc.devRef .tc main_arg7) = (m ((c : Thread nD τ).loc main_arg7)) := Stretch.stretch0_keeps_main_arg7 (W0 m ρ c)
theorem at1_main_arg8 : W1 m ρ c (Proc.devRef .tc main_arg8) = (m ((c : Thread nD τ).loc main_arg8)) := Stretch.stretch0_keeps_main_arg8 (W0 m ρ c)
theorem at1_main_arg9 : W1 m ρ c (Proc.devRef .tc main_arg9) = (m ((c : Thread nD τ).loc main_arg9)) := Stretch.stretch0_keeps_main_arg9 (W0 m ρ c)
theorem at1_main_arg10 : W1 m ρ c (Proc.devRef .tc main_arg10) = (m ((c : Thread nD τ).loc main_arg10)) := Stretch.stretch0_keeps_main_arg10 (W0 m ρ c)
theorem at1_main_arg11 : W1 m ρ c (Proc.devRef .tc main_arg11) = (m ((c : Thread nD τ).loc main_arg11)) := Stretch.stretch0_keeps_main_arg11 (W0 m ρ c)
theorem at1_main_v8 : W1 m ρ c (Proc.devRef .tc main_v8) = (reciprocalColumn (m ((c : Thread nD τ).loc main_arg2))) := Stretch.stretch0_column (W0 m ρ c)
theorem at1_mean : W1 m ρ c (Proc.devRef .tc main_v20) = (meanByReciprocal (m ((c : Thread nD τ).loc main_arg0)) (m ((c : Thread nD τ).loc main_arg1)) (m ((c : Thread nD τ).loc main_arg2))) :=
  (Stretch.stretch0_scaled (W0 m ρ c)).trans (scaledSums_reciprocalColumn _ _ _)
theorem at1_bias : W1 m ρ c (Proc.devRef .tc main_v21) = shapeCast S1x128 ((m ((c : Thread nD τ).loc main_arg5)) : FVec Ideal S128 .f32) shapeCasts_S128_S1x128 :=
  Stretch.stretch0_bias (W0 m ρ c)

/-! ## Leaving the first launch -/

theorem at2_hidden : W2 m ρ c (Proc.devRef .tc main_v22) = (hidden1 m c) :=
  (W2_arr m ρ c 5).trans (Region.output0 (V1 m ρ) c _ _ _ _ _ (at1_main_arg0 m ρ c) (at1_mean m ρ c) (at1_main_arg3 m ρ c) (at1_main_arg4 m ρ c) (at1_bias m ρ c))
theorem at2_main_v8 : W2 m ρ c (Proc.devRef .tc main_v8) = (reciprocalColumn (m ((c : Thread nD τ).loc main_arg2))) := (W2_of_ne m ρ c main_v8 (by decide)).trans (at1_main_v8 m ρ c)
theorem at2_main_arg1 : W2 m ρ c (Proc.devRef .tc main_arg1) = (m ((c : Thread nD τ).loc main_arg1)) := (W2_of_ne m ρ c main_arg1 (by decide)).trans (at1_main_arg1 m ρ c)
theorem at2_main_arg2 : W2 m ρ c (Proc.devRef .tc main_arg2) = (m ((c : Thread nD τ).loc main_arg2)) := (W2_of_ne m ρ c main_arg2 (by decide)).trans (at1_main_arg2 m ρ c)
theorem at2_main_arg6 : W2 m ρ c (Proc.devRef .tc main_arg6) = (m ((c : Thread nD τ).loc main_arg6)) := (W2_of_ne m ρ c main_arg6 (by decide)).trans (at1_main_arg6 m ρ c)
theorem at2_main_arg7 : W2 m ρ c (Proc.devRef .tc main_arg7) = (m ((c : Thread nD τ).loc main_arg7)) := (W2_of_ne m ρ c main_arg7 (by decide)).trans (at1_main_arg7 m ρ c)
theorem at2_main_arg8 : W2 m ρ c (Proc.devRef .tc main_arg8) = (m ((c : Thread nD τ).loc main_arg8)) := (W2_of_ne m ρ c main_arg8 (by decide)).trans (at1_main_arg8 m ρ c)
theorem at2_main_arg9 : W2 m ρ c (Proc.devRef .tc main_arg9) = (m ((c : Thread nD τ).loc main_arg9)) := (W2_of_ne m ρ c main_arg9 (by decide)).trans (at1_main_arg9 m ρ c)
theorem at2_main_arg10 : W2 m ρ c (Proc.devRef .tc main_arg10) = (m ((c : Thread nD τ).loc main_arg10)) := (W2_of_ne m ρ c main_arg10 (by decide)).trans (at1_main_arg10 m ρ c)
theorem at2_main_arg11 : W2 m ρ c (Proc.devRef .tc main_arg11) = (m ((c : Thread nD τ).loc main_arg11)) := (W2_of_ne m ρ c main_arg11 (by decide)).trans (at1_main_arg11 m ρ c)

/-! ## Entering the second launch -/

theorem at3_hidden : W3 m ρ c (Proc.devRef .tc main_v22) = (hidden1 m c) := (Stretch.stretch1_keeps_main_v22 (W2 m ρ c)).trans (at2_hidden m ρ c)
theorem at3_main_v8 : W3 m ρ c (Proc.devRef .tc main_v8) = (reciprocalColumn (m ((c : Thread nD τ).loc main_arg2))) := (Stretch.stretch1_keeps_main_v8 (W2 m ρ c)).trans (at2_main_v8 m ρ c)
theorem at3_main_arg1 : W3 m ρ c (Proc.devRef .tc main_arg1) = (m ((c : Thread nD τ).loc main_arg1)) := (Stretch.stretch1_keeps_main_arg1 (W2 m ρ c)).trans (at2_main_arg1 m ρ c)
theorem at3_main_arg2 : W3 m ρ c (Proc.devRef .tc main_arg2) = (m ((c : Thread nD τ).loc main_arg2)) := (Stretch.stretch1_keeps_main_arg2 (W2 m ρ c)).trans (at2_main_arg2 m ρ c)
theorem at3_main_arg6 : W3 m ρ c (Proc.devRef .tc main_arg6) = (m ((c : Thread nD τ).loc main_arg6)) := (Stretch.stretch1_keeps_main_arg6 (W2 m ρ c)).trans (at2_main_arg6 m ρ c)
theorem at3_main_arg7 : W3 m ρ c (Proc.devRef .tc main_arg7) = (m ((c : Thread nD τ).loc main_arg7)) := (Stretch.stretch1_keeps_main_arg7 (W2 m ρ c)).trans (at2_main_arg7 m ρ c)
theorem at3_main_arg9 : W3 m ρ c (Proc.devRef .tc main_arg9) = (m ((c : Thread nD τ).loc main_arg9)) := (Stretch.stretch1_keeps_main_arg9 (W2 m ρ c)).trans (at2_main_arg9 m ρ c)
theorem at3_main_arg10 : W3 m ρ c (Proc.devRef .tc main_arg10) = (m ((c : Thread nD τ).loc main_arg10)) := (Stretch.stretch1_keeps_main_arg10 (W2 m ρ c)).trans (at2_main_arg10 m ρ c)
theorem at3_main_arg11 : W3 m ρ c (Proc.devRef .tc main_arg11) = (m ((c : Thread nD τ).loc main_arg11)) := (Stretch.stretch1_keeps_main_arg11 (W2 m ρ c)).trans (at2_main_arg11 m ρ c)
theorem at3_mean : W3 m ρ c (Proc.devRef .tc main_v34) = (meanByReciprocal (hidden1 m c) (m ((c : Thread nD τ).loc main_arg1)) (m ((c : Thread nD τ).loc main_arg2))) := by
  refine (Stretch.stretch1_scaled (W2 m ρ c)).trans ?_
  rw [at2_hidden, at2_main_arg1, at2_main_arg2, at2_main_v8]
  exact scaledSums_reciprocalColumn _ _ _
theorem at3_bias : W3 m ρ c (Proc.devRef .tc main_v35) = shapeCast S1x128 ((m ((c : Thread nD τ).loc main_arg8)) : FVec Ideal S128 .f32) shapeCasts_S128_S1x128 := by
  refine (Stretch.stretch1_bias (W2 m ρ c)).trans ?_
  rw [at2_main_arg8]

/-! ## Leaving the second launch -/

theorem at4_hidden : W4 m ρ c (Proc.devRef .tc main_v36) = (hidden2 m c) :=
  (W4_arr m ρ c 5).trans (Region.output1 (V3 m ρ) c _ _ _ _ _ (at3_hidden m ρ c) (at3_mean m ρ c) (at3_main_arg6 m ρ c) (at3_main_arg7 m ρ c) (at3_bias m ρ c))
theorem at4_main_v8 : W4 m ρ c (Proc.devRef .tc main_v8) = (reciprocalColumn (m ((c : Thread nD τ).loc main_arg2))) := (W4_of_ne m ρ c main_v8 (by decide)).trans (at3_main_v8 m ρ c)
theorem at4_main_arg1 : W4 m ρ c (Proc.devRef .tc main_arg1) = (m ((c : Thread nD τ).loc main_arg1)) := (W4_of_ne m ρ c main_arg1 (by decide)).trans (at3_main_arg1 m ρ c)
theorem at4_main_arg2 : W4 m ρ c (Proc.devRef .tc main_arg2) = (m ((c : Thread nD τ).loc main_arg2)) := (W4_of_ne m ρ c main_arg2 (by decide)).trans (at3_main_arg2 m ρ c)
theorem at4_main_arg9 : W4 m ρ c (Proc.devRef .tc main_arg9) = (m ((c : Thread nD τ).loc main_arg9)) := (W4_of_ne m ρ c main_arg9 (by decide)).trans (at3_main_arg9 m ρ c)
theorem at4_main_arg10 : W4 m ρ c (Proc.devRef .tc main_arg10) = (m ((c : Thread nD τ).loc main_arg10)) := (W4_of_ne m ρ c main_arg10 (by decide)).trans (at3_main_arg10 m ρ c)
theorem at4_main_arg11 : W4 m ρ c (Proc.devRef .tc main_arg11) = (m ((c : Thread nD τ).loc main_arg11)) := (W4_of_ne m ρ c main_arg11 (by decide)).trans (at3_main_arg11 m ρ c)

/-! ## Entering the third launch -/

theorem at5_hidden : W5 m ρ c (Proc.devRef .tc main_v36) = (hidden2 m c) := (Stretch.stretch2_keeps_main_v36 (W4 m ρ c)).trans (at4_hidden m ρ c)
theorem at5_main_arg9 : W5 m ρ c (Proc.devRef .tc main_arg9) = (m ((c : Thread nD τ).loc main_arg9)) := (Stretch.stretch2_keeps_main_arg9 (W4 m ρ c)).trans (at4_main_arg9 m ρ c)
theorem at5_main_arg10 : W5 m ρ c (Proc.devRef .tc main_arg10) = (m ((c : Thread nD τ).loc main_arg10)) := (Stretch.stretch2_keeps_main_arg10 (W4 m ρ c)).trans (at4_main_arg10 m ρ c)
theorem at5_mean : W5 m ρ c (Proc.devRef .tc main_v48) = (meanByReciprocal (hidden2 m c) (m ((c : Thread nD τ).loc main_arg1)) (m ((c : Thread nD τ).loc main_arg2))) := by
  refine (Stretch.stretch2_scaled (W4 m ρ c)).trans ?_
  rw [at4_hidden, at4_main_arg1, at4_main_arg2, at4_main_v8]
  exact scaledSums_reciprocalColumn _ _ _
theorem at5_bias : W5 m ρ c (Proc.devRef .tc main_v49) = shapeCast S1x47 ((m ((c : Thread nD τ).loc main_arg11)) : FVec Ideal S47 .f32) shapeCasts_S47_S1x47 := by
  refine (Stretch.stretch2_bias (W4 m ρ c)).trans ?_
  rw [at4_main_arg11]

/-! ## The result -/

/-- THE RESULT BUFFER at the last boundary: the network of the launch memory's arguments, with the mean by reciprocal. -/
theorem result : W6 m ρ c (Proc.devRef .tc main_v50)
    = net meanByReciprocal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W6_arr m ρ c 5).trans (Region.output2 (V5 m ρ) c _ _ _ _ _ (at5_hidden m ρ c) (at5_mean m ρ c) (at5_main_arg9 m ρ c) (at5_main_arg10 m ρ c) (at5_bias m ρ c))

end Cert.Sage.Chain

end
-- ==== Proof.lean ====
/-
  Three layers of neighbourhood-mean aggregation and a dense transform, on a graph of 50000 nodes and 800000 edges.

  Each layer sends node features `h` to `h · Ws + mean(h) · Wn + b`, clamped below by zero in the two hidden layers;
  `mean(h)` at a node is the sum of `h` over the edges arriving there, divided by their number, the number taken as
  one where no edge arrives. The kernel computes the dense part of each layer in a launch over ten blocks of 5000
  nodes, and forms the mean on the host as the edge sums TIMES the reciprocal of the clamped count, the reciprocal
  computed once; the reference forms every layer on the host and DIVIDES the edge sums by the clamped count.

  Read on the extended reals — roundings to bfloat16 the identity, a matrix product the plain sum of products — the
  two programs compute one function of their arguments. The dense parts agree entry by entry: a block's entry
  `(r, q)` at grid point `t` is the layer's entry `(5000 t + r, q)`, and the ten blocks fill the array. The edge sums
  and the counts are the same gather and scatter-add on both sides and are never opened. The one law between the two
  spellings of the mean is that a quotient by a nonzero divisor is the product with its inverse, `a / d = a · d⁻¹`
  and `1 / d = d⁻¹`, so `a · (1 / d) = a / d` for every extended real `a`; the divisor `max(count, 1)` is at least
  one, hence not zero. Neither finiteness of the inputs nor of the sums is used.

  The kernel's idealization rewrote no operation, so that it is the kernel's sanctioned idealization holds trivially.
  The three frames: the two kernels' from the launch-by-launch frame certificate, the reference's from its run.
-/
import proofs.«149086_j4733053960618_1_alg».proof.Defs
import proofs.«149086_j4733053960618_1_alg».proof.Proof.Gen.Kernel
import proofs.«149086_j4733053960618_1_alg».proof.Proof.Gen.KernelIdeal
import proofs.«149086_j4733053960618_1_alg».proof.Proof.Gen.ReferenceIdeal
import proofs.«149086_j4733053960618_1_alg».proof.Proof.Gen.Pre_finite_inputs
import proofs.«149086_j4733053960618_1_alg».proof.Proof.Gen.ReferenceIdeal.Run
import proofs.«149086_j4733053960618_1_alg».proof.Proof.Gen.ReferenceIdeal.Read
import proofs.«149086_j4733053960618_1_alg».proof.Proof.KernelFrameP
import proofs.«149086_j4733053960618_1_alg».proof.Proof.KernelIdealFrameP
import proofs.«149086_j4733053960618_1_alg».proof.Proof.KernelRun
import proofs.«149086_j4733053960618_1_alg».proof.Proof.KernelValue
import proofs.«149086_j4733053960618_1_alg».proof.Proof.Spec
import Idealize.ShloMosaic.Adequacy
import Idealize.ShloMosaic.Init

noncomputable section

namespace Cert.Proof

open Idealize.ShloMosaic Idealize.SL.Sem

/-- The kernel, as printed, runs and leaves its arguments as launched. -/
theorem frame_kernel : Cert.frame_Kernel := fun m ρ _ => Cert.Kernel.GenP.frame m ρ

/-- So does the kernel read on the extended reals. -/
theorem frame_kernelIdeal : Cert.frame_KernelIdeal := fun m ρ _ => Cert.KernelIdeal.GenP.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals, from memories that agree on the arguments, the kernel and the reference both run and end
    with one result: the three-layer network of the arguments. The kernel's run ends at the network with the mean by
    reciprocal, the reference's at the network with the mean by quotient, and the two means are one array. -/
theorem algebraic : Cert.algebraic_KernelIdeal_ReferenceIdeal := by
  intro m ρ m' ρ' _ hagree
  refine ⟨fun c => Cert.Sage.net Cert.Sage.meanByQuotient (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ⟨(h c).1.trans ?_, (h c).2⟩) (Cert.Sage.Run.run_result (F := Ideal) m ρ)
    rw [Cert.Sage.Chain.result m ρ c, Cert.Sage.meanByReciprocal_eq]
  · refine (θ_run Cert.ReferenceIdeal.defs _ _).mono (fun r h c => ⟨(h c).1.trans ?_, (h c).2⟩) (Cert.ReferenceIdeal.Value.run (F := Ideal) m' ρ')
    obtain ⟨a0, a1, a2, a3, a4, a5, a6, a7, a8, a9, a10, a11⟩ := hagree c
    rw [Cert.ReferenceIdeal.Read.val_main_v76_eq, Cert.Sage.reference_is_net, a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
